-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S1024x1024 .f32) (main_arg3 : FVec F S1024 .f32) (main_arg4 : FVec F S1024x1024 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S4x4096x4096 : Shape := ⟨3, ![4, 4096, 4096]⟩
abbrev S1x256x1024 : Shape := ⟨3, ![1, 256, 1024]⟩
abbrev S1x4096x1024 : Shape := ⟨3, ![1, 4096, 1024]⟩
abbrev S1x256x4096 : Shape := ⟨3, ![1, 256, 4096]⟩
abbrev S256x1024 : Shape := ⟨2, ![256, 1024]⟩
abbrev S4096x1024 : Shape := ⟨2, ![4096, 1024]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S4x4096x1024, .bf16⟩
  | .hbm, ⟨11, _⟩ => ⟨S4x4096x1024, .bf16⟩
  | .hbm, ⟨12, _⟩ => ⟨S4x4096x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x4096x1024, .bf16⟩
  | .local _ .vmem, ⟨15, _⟩ => ⟨S1x4096x1024, .bf16⟩
  | .local _ .vmem, ⟨16, _⟩ => ⟨S1x256x4096, .f32⟩
  | .local _ .vmem, ⟨17, _⟩ => ⟨S1x256x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S512x1024_S1024x1024_S512x1024_1_0_0_1_n_n_wf : DotDims.WF S512x1024 S1024x1024 S512x1024 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .f32 = 32 ∨ (Rect.block (s := S4x4096x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x4096x1024.size a
  hwx0_6 : ∀ i : grid0.Coords, EltTy.bits .bf16 = 32 ∨ (Rect.block (s := S4x4096x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x4096x1024.size a
  hwx0_7 : ∀ i : grid0.Coords, EltTy.bits .bf16 = 32 ∨ (Rect.block (s := S4x4096x1024) S1x512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .bf16 = 32 ∨ (Rect.block (s := S4x4096x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S4x4096x1024.size a
  hwx1_1 : ∀ i : grid1.Coords, EltTy.bits .bf16 = 32 ∨ (Rect.block (s := S4x4096x1024) S1x4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x4096.size a ≤ S4x4096x4096.size a
  hwx1_2 : ∀ i : grid1.Coords, EltTy.bits .f32 = 32 ∨ (Rect.block (s := S4x4096x4096) S1x256x4096.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4x4096x1024, .f32⟩
  | .hbm, ⟨7, _⟩ => ⟨S1x1x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf

class Facts : Prop extends Facts₀ where

variable [Facts]
-- ==== Proof.ProjPayload.lean ====
/-
  What the projection kernel's body stores, read one entry at a time at the ideal values.

  The body loads a [1, 512, 1024] block of token rows, the whole weight matrix and the bias as a [1, 1024] row,
  multiplies the 512 rows into the matrix, adds the bias row to every row, and stores the [1, 512, 1024] result.
  The casts that add or drop the leading unit axis move no entry, narrowing to a shorter float format is the
  identity at the ideal values, and a matrix product into a zero accumulator is the plain sum over the
  contracted axis. So entry (0, r, e) of the stored block is  Σ_k x[0, r, k] · w[k, e]  +  β[0, e].
  The body does this twice: once for the first loaded block with the first matrix and bias, once for the entrywise
  sum of the two loaded blocks with the second matrix and bias.
-/
import proofs.«156765_j31988916420764_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjValue

open Cert.KernelIdeal Cert.KernelIdeal.Gen Idealize.ShloMosaic Idealize.ShloMosaic.ValueIdx

/-! ## The matrix product's operand indices, by coordinates -/

/-- The left operand is read at the output's row … -/
theorem lhs_coord0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … and, along its second axis, at the contraction position; -/
theorem lhs_coord1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- the right operand down its first axis at the contraction position … -/
theorem rhs_coord0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- … and at the output's column. -/
theorem rhs_coord1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- So row `r`, column `e` of the product reads row `r` of the left operand along the contracted axis … -/
theorem lhs_rows (r : Fin 512) (e k : Fin 1024) :
    dot_S512x1024_S1024x1024_S512x1024_1_0_0_1_n_n.lhsIdx (ix2 r e) ((contrEquiv1 dot_S512x1024_S1024x1024_S512x1024_1_0_0_1_n_n 1024 rfl rfl).symm k) = ix2 r k :=
  funext fun a => Fin.ext (by
    have hk := contrEquiv1_symm_val dot_S512x1024_S1024x1024_S512x1024_1_0_0_1_n_n 1024 rfl rfl k
    match a with
    | ⟨0, _⟩ => exact lhs_coord0 _ _
    | ⟨1, _⟩ => exact (lhs_coord1 _ _).trans hk)

/-- … and column `e` of the right operand down it. -/
theorem rhs_cols (r : Fin 512) (e k : Fin 1024) :
    dot_S512x1024_S1024x1024_S512x1024_1_0_0_1_n_n.rhsIdx (ix2 r e) ((contrEquiv1 dot_S512x1024_S1024x1024_S512x1024_1_0_0_1_n_n 1024 rfl rfl).symm k) = ix2 k e :=
  funext fun a => Fin.ext (by
    have hk := contrEquiv1_symm_val dot_S512x1024_S1024x1024_S512x1024_1_0_0_1_n_n 1024 rfl rfl k
    match a with
    | ⟨0, _⟩ => exact (rhs_coord0 _ _).trans hk
    | ⟨1, _⟩ => exact rhs_coord1 _ _)

/-- A product of a [512, 1024] block with a [1024, 1024] matrix into a zero accumulator, at (r, e): the sum over the
    contracted axis of row `r` against column `e`. -/
theorem product_apply (l : FVec Ideal S512x1024 .bf16) (w : FVec Ideal S1024x1024 .bf16) (r : Fin 512) (e : Fin 1024) :
    matmul (F := Ideal) dot_S512x1024_S1024x1024_S512x1024_1_0_0_1_n_n none l w (constant (F := Ideal) S512x1024 .f32 0x00000000#32) (ix2 r e)
      = ∑ k : Fin 1024, l (ix2 r k) * w (ix2 k e) := by
  simp only [matmul]
  rw [Ideal.matmul_constant_zero_apply,
    ← Equiv.sum_comp (contrEquiv1 dot_S512x1024_S1024x1024_S512x1024_1_0_0_1_n_n 1024 rfl rfl).symm]
  exact Finset.sum_congr rfl fun k _ => by rw [lhs_rows, rhs_cols]

/-! ## The first stored block: the linear layer of the loaded rows -/

/-- Entry (0, r, e) of the first stored block. -/
theorem first_store_apply (x0 : Vec Ideal S1x512x1024 .f32) (w : Vec Ideal S1024x1024 .bf16) (β : Vec Ideal S1x1024 .f32)
    (u : Fin 1) (r : Fin 512) (e : Fin 1024) :
    k0_pay2 (F := Ideal) x0 w β (ix3 u r e)
      = (∑ k : Fin 1024, x0 (ix3 (0 : Fin 1) r k) * w (ix2 k e)) + β (ix2 (0 : Fin 1) e) := by
  unfold k0_pay2 k0_pay1
  dsimp only
  rw [shapeCast_ab_1ab_apply]
  show matmul (F := Ideal) dot_S512x1024_S1024x1024_S512x1024_1_0_0_1_n_n none _ _ (constant (F := Ideal) S512x1024 .f32 0x00000000#32) (ix2 r e)
      + broadcastTo S512x1024 (shapeCast S1x1024 β shapeCasts_S1x1024_S1x1024) broadcasts_S1x1024_S512x1024 (ix2 r e) = _
  rw [product_apply, broadcastTo_1b_ab_apply, shapeCast_self, shapeCast_self]
  refine congrArg (· + β (ix2 (0 : Fin 1) e)) (Finset.sum_congr rfl fun (k : Fin 1024) _ => ?_)
  exact congrArg (· * w (ix2 k e)) (shapeCast_1ab_ab_apply x0 shapeCasts_S1x512x1024_S512x1024 r k)

/-! ## The second stored block: the linear layer of the SUM of the two loaded row blocks -/

/-- Entry (0, r, e) of the second stored block: the two loaded blocks are added entry by entry before the product. -/
theorem second_store_apply (x0 x1 : Vec Ideal S1x512x1024 .f32) (w : Vec Ideal S1024x1024 .bf16) (β : Vec Ideal S1x1024 .f32)
    (u : Fin 1) (r : Fin 512) (e : Fin 1024) :
    k0_pay3 (F := Ideal) x0 x1 w β (ix3 u r e)
      = (∑ k : Fin 1024, (x0 (ix3 (0 : Fin 1) r k) + x1 (ix3 (0 : Fin 1) r k)) * w (ix2 k e)) + β (ix2 (0 : Fin 1) e) := by
  unfold k0_pay3 k0_pay1
  dsimp only
  rw [shapeCast_ab_1ab_apply]
  show matmul (F := Ideal) dot_S512x1024_S1024x1024_S512x1024_1_0_0_1_n_n none _ _ (constant (F := Ideal) S512x1024 .f32 0x00000000#32) (ix2 r e)
      + broadcastTo S512x1024 (shapeCast S1x1024 β shapeCasts_S1x1024_S1x1024) broadcasts_S1x1024_S512x1024 (ix2 r e) = _
  rw [product_apply, broadcastTo_1b_ab_apply, shapeCast_self, shapeCast_self]
  refine congrArg (· + β (ix2 (0 : Fin 1) e)) (Finset.sum_congr rfl fun (k : Fin 1024) _ => ?_)
  exact congrArg (· * w (ix2 k e))
    (congrArg₂ (· + ·) (shapeCast_1ab_ab_apply x0 shapeCasts_S1x512x1024_S512x1024 r k)
      (shapeCast_1ab_ab_apply x1 shapeCasts_S1x512x1024_S512x1024 r k))

end Cert.KernelIdeal.ProjValue

end
-- ==== Proof.Spec.lean ====
/-
  The mathematics of the claim, with no program in sight: one function of the six argument arrays over the
  extended reals, index by index.

  Two linear layers over the feature axis (1024 wide),
      h[b, s, e] = (Σ_k x[b, s, k] · w₁[k, e]) + β₁[e]
      g[b, s, e] = (Σ_k (x + p)[b, s, k] · w₂[k, e]) + β₂[e],
  the scores of every query row against every key row of the same batch,
      a[b, q, k] = Σ_d h[b, q, d] · g[b, k, d],
  and the softmax of each score row over its 4096 keys, taken the numerically careful way: subtract the row's
  maximum, exponentiate, divide by the row's sum of exponentials. The maximum is the fold of `max` from the
  f32 pattern of -∞ over the row, which is how both programs take it.
-/
import Idealize.ShloMosaic.PureOps.Ideal
import Idealize.ShloMosaic.Lib.ValueIdx

noncomputable section

open scoped BigOperators

namespace Cert.Spec

open Idealize.ShloMosaic Idealize.ShloMosaic.ValueIdx

/-- Token arrays [batch, position, feature]; weight matrices [feature in, feature out]; biases [feature];
    attention maps [batch, query, key]. -/
abbrev Tok : Shape := ⟨3, ![4, 4096, 1024]⟩
abbrev Wgt : Shape := ⟨2, ![1024, 1024]⟩
abbrev Bia : Shape := ⟨1, ![1024]⟩
abbrev Att : Shape := ⟨3, ![4, 4096, 4096]⟩

/-- One entry of a linear layer: row (b, s) of `x` against column `e` of `w`, plus the bias at `e`. -/
def linearAt (x : Tok.Idx → EReal) (w : Wgt.Idx → EReal) (β : Bia.Idx → EReal) (b : Fin 4) (s : Fin 4096) (e : Fin 1024) : EReal :=
  (∑ k : Fin 1024, x (ix3 b s k) * w (ix2 k e)) + β (ix1 e)

/-- The linear layer as an array. -/
def linear (x : Tok.Idx → EReal) (w : Wgt.Idx → EReal) (β : Bia.Idx → EReal) : Tok.Idx → EReal :=
  fun i => linearAt x w β (i 0) (i 1) (i 2)

/-- The score of query row `q` against key row `k` in batch `b`: their inner product over the features. -/
def scoreAt (h g : Tok.Idx → EReal) (b : Fin 4) (q k : Fin 4096) : EReal :=
  ∑ d : Fin 1024, h (ix3 b q d) * g (ix3 b k d)

/-- A row's maximum, folded from the f32 pattern of -∞. -/
def rowMax (f : Fin 4096 → EReal) : EReal :=
  (Finset.univ : Finset (Fin 4096)).fold max (Ideal.ofBits .f32 0xFF800000#32) f

/-- Entry `k` of the softmax of a row. -/
def softmaxAt (f : Fin 4096 → EReal) (k : Fin 4096) : EReal :=
  Ideal.div (Ideal.exp (f k - rowMax f)) (∑ j : Fin 4096, Ideal.exp (f j - rowMax f))

/-- The attention map of queries `h` against keys `g`: each score row, softmaxed. -/
def attention (h g : Tok.Idx → EReal) : Att.Idx → EReal :=
  fun j => softmaxAt (fun k => scoreAt h g (j 0) (j 1) k) (j 2)

/-- The whole result, as one function of the six argument arrays. -/
def result (x p : Tok.Idx → EReal) (w₁ : Wgt.Idx → EReal) (β₁ : Bia.Idx → EReal) (w₂ : Wgt.Idx → EReal) (β₂ : Bia.Idx → EReal) :
    Att.Idx → EReal :=
  attention (linear x w₁ β₁) (linear (fun i => x i + p i) w₂ β₂)

/-- A maximum folded from -∞ is at least -∞, so taking its maximum with -∞ once more changes nothing. -/
theorem max_negInf_rowMax (f : Fin 4096 → EReal) : max (Ideal.ofBits .f32 0xFF800000#32) (rowMax f) = rowMax f :=
  max_eq_right ((Finset.le_fold_max _).mpr (Or.inl le_rfl))

end Cert.Spec

end
-- ==== Proof.ProjArray.lean ====
/-
  The projection region, from blocks to whole arrays, at the ideal values.

  The region's grid has 4 × 8 points. At point (b, s) the pipeline hands the body rows 512·s … 512·s + 511 of
  batch b of each token array, the whole of each weight matrix and the whole of each bias row, and writes the two
  stored blocks back to the same rows of batch b of the two result arrays. Each stored block is the linear layer
  of the rows it was given (the payload lemmas), so what a point writes back is that stretch of rows of ONE
  function of the arrays the region was entered with: `linear` of the specification. The 32 blocks tile each
  result array, so after the region each result array IS that function.

  Everything is stated at arbitrary contents `V` of the core's buffers at the region's entry.
-/
import proofs.«156765_j31988916420764_2_alg».proof.Proof.Gen.KernelIdeal.Frame
import proofs.«156765_j31988916420764_2_alg».proof.Proof.ProjPayload
import proofs.«156765_j31988916420764_2_alg».proof.Proof.Spec
import Idealize.ShloMosaic.Lib.Pipeline.Value

set_option maxRecDepth 16384

noncomputable section

open scoped BigOperators

open Idealize.ShloMosaic Idealize.ShloMosaic.TcCoe Idealize.SL.Sem
open Idealize.ShloMosaic.Pipeline (Dat)

namespace Cert.KernelIdeal.ProjValue

open Cert.KernelIdeal Cert.KernelIdeal.Gen Idealize.ShloMosaic.ValueIdx Cert.Spec

/-! ## A block's entry as the array's: two congruences over plain functions into the extended reals -/

/-- If row `r` of a block is row (b', s') of the array `X`, column `e` of the block's matrix is column `e'` of `W`,
    and the block's bias entry is the bias row's at `e'`, then the block's linear-layer entry (r, e) is the array's
    at (b', s', e'). -/
theorem linear_block (X : Tok.Idx → EReal) (W : Wgt.Idx → EReal) (Bv : (⟨2, ![1, 1024]⟩ : Shape).Idx → EReal)
    (x0 : (⟨3, ![1, 512, 1024]⟩ : Shape).Idx → EReal) (w : Wgt.Idx → EReal) (β : (⟨2, ![1, 1024]⟩ : Shape).Idx → EReal)
    (b' : Fin 4) (s' : Fin 4096) (e' : Fin 1024) (r : Fin 512) (e : Fin 1024)
    (hx : ∀ k : Fin 1024, x0 (ix3 (0 : Fin 1) r k) = X (ix3 b' s' k)) (hw : ∀ k : Fin 1024, w (ix2 k e) = W (ix2 k e'))
    (hβ : β (ix2 (0 : Fin 1) e) = Bv (ix2 (0 : Fin 1) e')) :
    (∑ k : Fin 1024, x0 (ix3 (0 : Fin 1) r k) * w (ix2 k e)) + β (ix2 (0 : Fin 1) e)
      = linear X W (fun i => Bv (ix2 (0 : Fin 1) (i 0))) (ix3 b' s' e') := by
  show _ = (∑ k : Fin 1024, X (ix3 b' s' k) * W (ix2 k e')) + Bv (ix2 (0 : Fin 1) e')
  rw [hβ]
  exact congrArg (· + Bv (ix2 (0 : Fin 1) e')) (Finset.sum_congr rfl fun k _ => by rw [hx k, hw k])

/-- The same for the layer fed the entrywise sum of two blocks: rows of `X` and of `P`, added. -/
theorem linear_block_sum (X P : Tok.Idx → EReal) (W : Wgt.Idx → EReal) (Bv : (⟨2, ![1, 1024]⟩ : Shape).Idx → EReal)
    (x0 x1 : (⟨3, ![1, 512, 1024]⟩ : Shape).Idx → EReal) (w : Wgt.Idx → EReal) (β : (⟨2, ![1, 1024]⟩ : Shape).Idx → EReal)
    (b' : Fin 4) (s' : Fin 4096) (e' : Fin 1024) (r : Fin 512) (e : Fin 1024)
    (hx : ∀ k : Fin 1024, x0 (ix3 (0 : Fin 1) r k) = X (ix3 b' s' k)) (hp : ∀ k : Fin 1024, x1 (ix3 (0 : Fin 1) r k) = P (ix3 b' s' k))
    (hw : ∀ k : Fin 1024, w (ix2 k e) = W (ix2 k e')) (hβ : β (ix2 (0 : Fin 1) e) = Bv (ix2 (0 : Fin 1) e')) :
    (∑ k : Fin 1024, (x0 (ix3 (0 : Fin 1) r k) + x1 (ix3 (0 : Fin 1) r k)) * w (ix2 k e)) + β (ix2 (0 : Fin 1) e)
      = linear (fun i => X i + P i) W (fun i => Bv (ix2 (0 : Fin 1) (i 0))) (ix3 b' s' e') := by
  show _ = (∑ k : Fin 1024, (X (ix3 b' s' k) + P (ix3 b' s' k)) * W (ix2 k e')) + Bv (ix2 (0 : Fin 1) e')
  rw [hβ]
  exact congrArg (· + Bv (ix2 (0 : Fin 1) e')) (Finset.sum_congr rfl fun k _ => by rw [hx k, hp k, hw k])

/-- The entrywise sum of two token arrays. -/
abbrev addTok (X P : Tok.Idx → EReal) : Tok.Idx → EReal := fun i => X i + P i

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the 32 grid points -/

/-- At every point the two token windows and the two result windows sit at one block (batch, row block, 0), the
    matrices and bias rows at block (0, 0); the batch index is below 4 and the row-block index below 8. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = win0_6.index t (1 : Fin 3)
    ∧ win0_1.index t (2 : Fin 3) = 0
    ∧ win0_7.index t (0 : Fin 3) = win0_6.index t (0 : Fin 3) ∧ win0_7.index t (1 : Fin 3) = win0_6.index t (1 : Fin 3)
    ∧ win0_7.index t (2 : Fin 3) = 0 ∧ win0_6.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) < 4 ∧ win0_6.index t (1 : Fin 3) < 8 :=
  (by decide +kernel : ∀ t : Fin grid0.N, _)

/-! ## Each input block as a stretch of its array -/

/-- The first token window's block at point `t` holds 512 consecutive rows of one batch of its array: row `r` of
    the block is row (b', s') of the array whenever b' is the point's batch and s' is 512 · (row block) + r. -/
theorem rows_first (c : Dev nD) (t : Fin cfg0.N) (r : Fin 512) (k : Fin 1024) (b' : Fin 4) (s' : Fin 4096)
    (hb : b'.val = win0_0.index t (0 : Fin 3)) (hs : s'.val = win0_0.index t (1 : Fin 3) * 512 + r.val) :
    iblk0 V c 0 t (ix3 (0 : Fin 1) r k) = V c main_arg0 (ix3 b' s' k) := by
  obtain ⟨-, -, f02, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * 0 = b'.val; omega
  | ⟨1, _⟩ => show win0_0.index t (1 : Fin 3) * 512 + 1 * r.val = s'.val; omega
  | ⟨2, _⟩ => show win0_0.index t (2 : Fin 3) * 1024 + 1 * k.val = k.val; omega

/-- The second token window's block likewise, of the second array. -/
theorem rows_second (c : Dev nD) (t : Fin cfg0.N) (r : Fin 512) (k : Fin 1024) (b' : Fin 4) (s' : Fin 4096)
    (hb : b'.val = win0_1.index t (0 : Fin 3)) (hs : s'.val = win0_1.index t (1 : Fin 3) * 512 + r.val) :
    iblk0 V c 1 t (ix3 (0 : Fin 1) r k) = V c main_arg1 (ix3 b' s' k) := by
  obtain ⟨-, -, -, -, -, f12, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 3) * 1 + 1 * 0 = b'.val; omega
  | ⟨1, _⟩ => show win0_1.index t (1 : Fin 3) * 512 + 1 * r.val = s'.val; omega
  | ⟨2, _⟩ => show win0_1.index t (2 : Fin 3) * 1024 + 1 * k.val = k.val; omega

/-- A weight window's block is its whole matrix, at every point. -/
theorem matrix_first (c : Dev nD) (t : Fin cfg0.N) (k e : Fin 1024) : iblk0 V c 2 t (ix2 k e) = V c main_v0 (ix2 k e) := by
  obtain ⟨-, -, -, -, -, -, -, -, -, -, f20, f21, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 1024 + 1 * k.val = k.val; omega
  | ⟨1, _⟩ => show win0_2.index t (1 : Fin 2) * 1024 + 1 * e.val = e.val; omega
theorem matrix_second (c : Dev nD) (t : Fin cfg0.N) (k e : Fin 1024) : iblk0 V c 3 t (ix2 k e) = V c main_v1 (ix2 k e) := by
  obtain ⟨-, -, -, -, -, -, -, -, -, -, -, -, f30, f31, -⟩ := idx_facts t
  unfold iblk0
  rw [View.read_apply]
  show V c main_v1 _ = V c main_v1 _
  refine congrArg (V c main_v1) (funext fun a => Fin.ext ?_)
  match a with
  | ⟨0, _⟩ => show win0_3.index t (0 : Fin 2) * 1024 + 1 * k.val = k.val; omega
  | ⟨1, _⟩ => show win0_3.index t (1 : Fin 2) * 1024 + 1 * e.val = e.val; omega

/-- A bias window's block is its whole row, at every point. -/
theorem bias_first (c : Dev nD) (t : Fin cfg0.N) (e : Fin 1024) : iblk0 V c 4 t (ix2 (0 : Fin 1) e) = V c main_v2 (ix2 (0 : Fin 1) e) := by
  obtain ⟨-, -, -, -, -, -, -, -, -, -, -, -, -, -, f40, f41, -⟩ := idx_facts t
  unfold iblk0
  rw [View.read_apply]
  show V c main_v2 _ = V c main_v2 _
  refine congrArg (V c main_v2) (funext fun a => Fin.ext ?_)
  match a with
  | ⟨0, _⟩ => show win0_4.index t (0 : Fin 2) * 1 + 1 * 0 = 0; omega
  | ⟨1, _⟩ => show win0_4.index t (1 : Fin 2) * 1024 + 1 * e.val = e.val; omega
theorem bias_second (c : Dev nD) (t : Fin cfg0.N) (e : Fin 1024) : iblk0 V c 5 t (ix2 (0 : Fin 1) e) = V c main_v3 (ix2 (0 : Fin 1) e) := by
  obtain ⟨-, -, -, -, -, -, -, -, -, -, -, -, -, -, -, -, f50, f51, -⟩ := idx_facts t
  unfold iblk0
  rw [View.read_apply]
  show V c main_v3 _ = V c main_v3 _
  refine congrArg (V c main_v3) (funext fun a => Fin.ext ?_)
  match a with
  | ⟨0, _⟩ => show win0_5.index t (0 : Fin 2) * 1 + 1 * 0 = 0; omega
  | ⟨1, _⟩ => show win0_5.index t (1 : Fin 2) * 1024 + 1 * e.val = e.val; omega

/-! ## What a point writes back -/

/-- The queries' array as a function of the region's entry contents: the linear layer of the first token array by
    the first matrix and bias row. -/
abbrev queries (c : Dev nD) : Tok.Idx → EReal :=
  linear (V c main_arg0) (V c main_v0) (fun i => V c main_v2 (ix2 (0 : Fin 1) (i 0)))

/-- The keys' array likewise: the linear layer of the SUM of the two token arrays by the second matrix and bias row. -/
abbrev keys (c : Dev nD) : Tok.Idx → EReal :=
  linear (addTok (V c main_arg0) (V c main_arg1)) (V c main_v1) (fun i => V c main_v3 (ix2 (0 : Fin 1) (i 0)))

/-- WHAT POINT `t` WRITES BACK to the first result array is block `t` of `queries`. -/
theorem flushed_queries (c : Dev nD) (t : Fin cfg0.N) :
    (dat0 V c).flushed 6 t = ((cfg0.win 6).blk t).view.read (Elt Ideal) (queries V c) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2, View.ld_unit_zero (S := S1x1024) hz2]
  funext y
  have h0 : (y 0).val < 1 := (y 0).isLt
  have h1 : (y 1).val < 512 := (y 1).isLt
  have h2 : (y 2).val < 1024 := (y 2).isLt
  have hL : (win0 6).cut (grid0.coords t) (k0_pay2 (F := Ideal) (iblk0 V c 0 t) (iblk0 V c 2 t) (iblk0 V c 4 t)) y
      = k0_pay2 (F := Ideal) (iblk0 V c 0 t) (iblk0 V c 2 t) (iblk0 V c 4 t)
          (ix3 (⟨(y 0).val, h0⟩ : Fin 1) (⟨(y 1).val, h1⟩ : Fin 512) (⟨(y 2).val, h2⟩ : Fin 1024)) :=
    congrArg (k0_pay2 (F := Ideal) (iblk0 V c 0 t) (iblk0 V c 2 t) (iblk0 V c 4 t))
      (funext fun a => Fin.ext (by match a with | ⟨0, _⟩ => rfl | ⟨1, _⟩ => rfl | ⟨2, _⟩ => rfl))
  refine (hL.trans (first_store_apply (iblk0 V c 0 t) (iblk0 V c 2 t) (iblk0 V c 4 t)
    ⟨(y 0).val, h0⟩ ⟨(y 1).val, h1⟩ ⟨(y 2).val, h2⟩)).trans ?_
  obtain ⟨f00, f01, -, -, -, -, -, -, -, f62, -, -, -, -, -, -, -, -, fb, fs⟩ := idx_facts t
  have hb : win0_6.index t (0 : Fin 3) * 1 + 1 * (y 0).val < 4 := by omega
  have hs : win0_6.index t (1 : Fin 3) * 512 + 1 * (y 1).val < 4096 := by omega
  have he : win0_6.index t (2 : Fin 3) * 1024 + 1 * (y 2).val < 1024 := by omega
  have hE : ((cfg0.win 6).blk t).view.emb y
      = ix3 (⟨win0_6.index t (0 : Fin 3) * 1 + 1 * (y 0).val, hb⟩ : Fin 4) (⟨win0_6.index t (1 : Fin 3) * 512 + 1 * (y 1).val, hs⟩ : Fin 4096)
          (⟨win0_6.index t (2 : Fin 3) * 1024 + 1 * (y 2).val, he⟩ : Fin 1024) :=
    funext fun a => Fin.ext (by match a with | ⟨0, _⟩ => rfl | ⟨1, _⟩ => rfl | ⟨2, _⟩ => rfl)
  rw [View.read_apply]
  show _ = queries V c (((cfg0.win 6).blk t).view.emb y)
  rw [hE]
  refine linear_block (V c main_arg0) (V c main_v0) (V c main_v2) (iblk0 V c 0 t) (iblk0 V c 2 t) (iblk0 V c 4 t) _ _ _ _ _
    (fun k => ?_) (fun k => ?_) ?_
  · exact rows_first V c t _ k _ _
      (show win0_6.index t (0 : Fin 3) * 1 + 1 * (y 0).val = win0_0.index t (0 : Fin 3) by omega)
      (show win0_6.index t (1 : Fin 3) * 512 + 1 * (y 1).val = win0_0.index t (1 : Fin 3) * 512 + (y 1).val by omega)
  · refine (matrix_first V c t k _).trans (congrArg (V c main_v0) (funext fun a => Fin.ext ?_))
    match a with
    | ⟨0, _⟩ => rfl
    | ⟨1, _⟩ => show (y 2).val = win0_6.index t (2 : Fin 3) * 1024 + 1 * (y 2).val; omega
  · refine (bias_first V c t _).trans (congrArg (V c main_v2) (funext fun a => Fin.ext ?_))
    match a with
    | ⟨0, _⟩ => rfl
    | ⟨1, _⟩ => show (y 2).val = win0_6.index t (2 : Fin 3) * 1024 + 1 * (y 2).val; omega

/-- WHAT POINT `t` WRITES BACK to the second result array is block `t` of `keys`. -/
theorem flushed_keys (c : Dev nD) (t : Fin cfg0.N) :
    (dat0 V c).flushed 7 t = ((cfg0.win 7).blk t).view.read (Elt Ideal) (keys V c) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2, View.ld_unit_zero (S := S1x1024) hz2]
  funext y
  have h0 : (y 0).val < 1 := (y 0).isLt
  have h1 : (y 1).val < 512 := (y 1).isLt
  have h2 : (y 2).val < 1024 := (y 2).isLt
  have hL : (win0 7).cut (grid0.coords t) (k0_pay3 (F := Ideal) (iblk0 V c 0 t) (iblk0 V c 1 t) (iblk0 V c 3 t) (iblk0 V c 5 t)) y
      = k0_pay3 (F := Ideal) (iblk0 V c 0 t) (iblk0 V c 1 t) (iblk0 V c 3 t) (iblk0 V c 5 t)
          (ix3 (⟨(y 0).val, h0⟩ : Fin 1) (⟨(y 1).val, h1⟩ : Fin 512) (⟨(y 2).val, h2⟩ : Fin 1024)) :=
    congrArg (k0_pay3 (F := Ideal) (iblk0 V c 0 t) (iblk0 V c 1 t) (iblk0 V c 3 t) (iblk0 V c 5 t))
      (funext fun a => Fin.ext (by match a with | ⟨0, _⟩ => rfl | ⟨1, _⟩ => rfl | ⟨2, _⟩ => rfl))
  refine (hL.trans (second_store_apply (iblk0 V c 0 t) (iblk0 V c 1 t) (iblk0 V c 3 t) (iblk0 V c 5 t)
    ⟨(y 0).val, h0⟩ ⟨(y 1).val, h1⟩ ⟨(y 2).val, h2⟩)).trans ?_
  obtain ⟨f00, f01, -, f10, f11, -, f70, f71, f72, -, -, -, -, -, -, -, -, -, fb, fs⟩ := idx_facts t
  have hb : win0_7.index t (0 : Fin 3) * 1 + 1 * (y 0).val < 4 := by omega
  have hs : win0_7.index t (1 : Fin 3) * 512 + 1 * (y 1).val < 4096 := by omega
  have he : win0_7.index t (2 : Fin 3) * 1024 + 1 * (y 2).val < 1024 := by omega
  have hE : ((cfg0.win 7).blk t).view.emb y
      = ix3 (⟨win0_7.index t (0 : Fin 3) * 1 + 1 * (y 0).val, hb⟩ : Fin 4) (⟨win0_7.index t (1 : Fin 3) * 512 + 1 * (y 1).val, hs⟩ : Fin 4096)
          (⟨win0_7.index t (2 : Fin 3) * 1024 + 1 * (y 2).val, he⟩ : Fin 1024) :=
    funext fun a => Fin.ext (by match a with | ⟨0, _⟩ => rfl | ⟨1, _⟩ => rfl | ⟨2, _⟩ => rfl)
  rw [View.read_apply]
  show _ = keys V c (((cfg0.win 7).blk t).view.emb y)
  rw [hE]
  refine linear_block_sum (V c main_arg0) (V c main_arg1) (V c main_v1) (V c main_v3)
    (iblk0 V c 0 t) (iblk0 V c 1 t) (iblk0 V c 3 t) (iblk0 V c 5 t) _ _ _ _ _
    (fun k => ?_) (fun k => ?_) (fun k => ?_) ?_
  · exact rows_first V c t _ k _ _
      (show win0_7.index t (0 : Fin 3) * 1 + 1 * (y 0).val = win0_0.index t (0 : Fin 3) by omega)
      (show win0_7.index t (1 : Fin 3) * 512 + 1 * (y 1).val = win0_0.index t (1 : Fin 3) * 512 + (y 1).val by omega)
  · exact rows_second V c t _ k _ _
      (show win0_7.index t (0 : Fin 3) * 1 + 1 * (y 0).val = win0_1.index t (0 : Fin 3) by omega)
      (show win0_7.index t (1 : Fin 3) * 512 + 1 * (y 1).val = win0_1.index t (1 : Fin 3) * 512 + (y 1).val by omega)
  · refine (matrix_second V c t k _).trans (congrArg (V c main_v1) (funext fun a => Fin.ext ?_))
    match a with
    | ⟨0, _⟩ => rfl
    | ⟨1, _⟩ => show (y 2).val = win0_7.index t (2 : Fin 3) * 1024 + 1 * (y 2).val; omega
  · refine (bias_second V c t _).trans (congrArg (V c main_v3) (funext fun a => Fin.ext ?_))
    match a with
    | ⟨0, _⟩ => rfl
    | ⟨1, _⟩ => show (y 2).val = win0_7.index t (2 : Fin 3) * 1024 + 1 * (y 2).val; omega

/-! ## The 32 blocks tile each result array -/

/-- Every (batch, row block) position is some point's, for both result windows. -/
theorem idx_onto : ∀ (q0 : Fin 4) (q1 : Fin 8), ∃ t : Fin cfg0.N,
    win0_6.index t = ![q0.val, q1.val, 0] ∧ win0_7.index t = ![q0.val, q1.val, 0] :=
  (by decide +kernel : ∀ (q0 : Fin 4) (q1 : Fin 8), ∃ t : Fin grid0.N,
    win0_6.index t = ![q0.val, q1.val, 0] ∧ win0_7.index t = ![q0.val, q1.val, 0])

/-- An index of the first result array is in point `t`'s block iff each coordinate is in the block's range on its axis. -/
theorem mem_blk_queries (t : Fin cfg0.N) (i : S4x4096x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v4_0).slice (win0_6.rect t)).set ↔ _
  rw [View.set_slice_whole, Rect.mem_set_unit]
  exact Iff.rfl
theorem mem_blk_keys (t : Fin cfg0.N) (i : S4x4096x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v4_1).slice (win0_7.rect t)).set ↔ _
  rw [View.set_slice_whole, Rect.mem_set_unit]
  exact Iff.rfl

/-- Entry (b, s, e) lies in the block of the point at batch b, row block s / 512. -/
theorem cover_queries (i : S4x4096x1024.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 1024 := (i 2).isLt
  obtain ⟨t, ht, -⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk_queries]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega
theorem cover_keys (i : S4x4096x1024.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 1024 := (i 2).isLt
  obtain ⟨t, -, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk_keys]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-! ## The two result arrays after the region -/

/-- AFTER THE REGION the first result array is `queries` of the entry contents … -/
theorem final_queries (c : Dev nD) : (dat0 V c).arrAt 6 cfg0.N = queries V c :=
  (dat0 V c).arrAt_eq_of_cover 6 (queries V c) (fun t _ => flushed_queries V c t) cover_queries

/-- … and the second is `keys` of them. -/
theorem final_keys (c : Dev nD) : (dat0 V c).arrAt 7 cfg0.N = keys V c :=
  (dat0 V c).arrAt_eq_of_cover 7 (keys V c) (fun t _ => flushed_keys V c t) cover_keys

end Cert.KernelIdeal.ProjValue

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.AttnPayload.lean ====
/-
  What the attention kernel's body stores, read one entry at a time at the ideal values.

  The body loads a [1, 256, 1024] block of query rows and the [1, 4096, 1024] block of all key rows of one batch.
  It multiplies every query row into every key row over the feature axis (a product contracting the LAST axis of
  both operands, so no transpose is ever formed), takes each score row's maximum from -∞, subtracts it,
  exponentiates, sums each row from zero, and divides. The row maximum and the row sum are kept as [256, 1]
  columns and broadcast back over the 4096 lanes. So entry (0, q, k) of the stored block is the softmax entry k of
  score row q.
-/
import proofs.«156765_j31988916420764_2_alg».proof.Proof.Gen.KernelIdeal.Skeleton
import proofs.«156765_j31988916420764_2_alg».proof.Proof.Spec
import proofs.«156765_j31988916420764_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttnValue

open Cert.KernelIdeal Cert.KernelIdeal.Gen Idealize.ShloMosaic Idealize.ShloMosaic.ValueIdx Cert.Spec Cert.LibKeepdims

/-! ## The score product's operand indices, by coordinates -/

/-- The left operand is read at the output's row … -/
theorem lhs_coord0 (j : S256x4096.Idx) (p : dot_S256x1024_S4096x1024_S256x4096_1_1_0_0_n_n.contr.Idx) :
    (dot_S256x1024_S4096x1024_S256x4096_1_1_0_0_n_n.lhsIdx j p 0).val = (j 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
/-- … and, along its last axis, at the contraction position; -/
theorem lhs_coord1 (j : S256x4096.Idx) (p : dot_S256x1024_S4096x1024_S256x4096_1_1_0_0_n_n.contr.Idx) :
    (dot_S256x1024_S4096x1024_S256x4096_1_1_0_0_n_n.lhsIdx j p 1).val = (p ⟨0, by decide⟩).val :=
  dot_S256x1024_S4096x1024_S256x4096_1_1_0_0_n_n.lhsIdx_val_of_single rfl j p
/-- the right operand at the output's COLUMN as its row … -/
theorem rhs_coord0 (j : S256x4096.Idx) (p : dot_S256x1024_S4096x1024_S256x4096_1_1_0_0_n_n.contr.Idx) :
    (dot_S256x1024_S4096x1024_S256x4096_1_1_0_0_n_n.rhsIdx j p 0).val = (j 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
/-- … and, along its last axis too, at the contraction position. -/
theorem rhs_coord1 (j : S256x4096.Idx) (p : dot_S256x1024_S4096x1024_S256x4096_1_1_0_0_n_n.contr.Idx) :
    (dot_S256x1024_S4096x1024_S256x4096_1_1_0_0_n_n.rhsIdx j p 1).val = (p ⟨0, by decide⟩).val :=
  dot_S256x1024_S4096x1024_S256x4096_1_1_0_0_n_n.rhsIdx_val_of_single rfl j p

theorem lhs_feat (q : Fin 256) (k : Fin 4096) (d : Fin 1024) :
    dot_S256x1024_S4096x1024_S256x4096_1_1_0_0_n_n.lhsIdx (ix2 q k) ((contrEquiv1 dot_S256x1024_S4096x1024_S256x4096_1_1_0_0_n_n 1024 rfl rfl).symm d) = ix2 q d :=
  funext fun a => Fin.ext (by
    have hd := contrEquiv1_symm_val dot_S256x1024_S4096x1024_S256x4096_1_1_0_0_n_n 1024 rfl rfl d
    match a with
    | ⟨0, _⟩ => exact lhs_coord0 _ _
    | ⟨1, _⟩ => exact (lhs_coord1 _ _).trans hd)
theorem rhs_feat (q : Fin 256) (k : Fin 4096) (d : Fin 1024) :
    dot_S256x1024_S4096x1024_S256x4096_1_1_0_0_n_n.rhsIdx (ix2 q k) ((contrEquiv1 dot_S256x1024_S4096x1024_S256x4096_1_1_0_0_n_n 1024 rfl rfl).symm d) = ix2 k d :=
  funext fun a => Fin.ext (by
    have hd := contrEquiv1_symm_val dot_S256x1024_S4096x1024_S256x4096_1_1_0_0_n_n 1024 rfl rfl d
    match a with
    | ⟨0, _⟩ => exact rhs_coord0 _ _
    | ⟨1, _⟩ => exact (rhs_coord1 _ _).trans hd)

/-- The product of the query block with the key block into a zero accumulator, at (q, k): the inner product of query
    row `q` and key row `k` over the features. -/
theorem scores_block_apply (l : FVec Ideal S256x1024 .bf16) (r : FVec Ideal S4096x1024 .bf16) (q : Fin 256) (k : Fin 4096) :
    matmul (F := Ideal) dot_S256x1024_S4096x1024_S256x4096_1_1_0_0_n_n none l r (constant (F := Ideal) S256x4096 .f32 0x00000000#32) (ix2 q k)
      = ∑ d : Fin 1024, l (ix2 q d) * r (ix2 k d) := by
  simp only [matmul]
  rw [Ideal.matmul_constant_zero_apply, ← Equiv.sum_comp (contrEquiv1 dot_S256x1024_S4096x1024_S256x4096_1_1_0_0_n_n 1024 rfl rfl).symm]
  exact Finset.sum_congr rfl fun d _ => by rw [lhs_feat, rhs_feat]

/-! ## A row's maximum and a row's sum -/

/-- Inserting lane `k` into the reduced index `q` gives (q, k). -/
theorem lane_lift (q : Fin 256) (k : Fin 4096) : reduces_S256x4096_S256.lift (ix1 q) k = ix2 q k :=
  funext fun a => Fin.ext (by match a with | ⟨0, _⟩ => rfl | ⟨1, _⟩ => rfl)

/-- The reduction by maximum over the lanes, from the pattern of -∞, at row `q`: the row's maximum. -/
theorem row_max_apply (s : FVec Ideal S256x4096 .f32) (hφ : FKind.Formats .f32)
    (hacc : (0xFF800000#32 : BitVec 32) = 0xFF800000#32) (q : Fin 256) :
    multiReduction (F := Ideal) .maximumf [1] S256 s 0xFF800000#32 reduces_S256x4096_S256 hφ hacc (ix1 q)
      = rowMax (fun k => s (ix2 q k)) :=
  (Ideal.multiReduction_maximumf_single s 0xFF800000#32 reduces_S256x4096_S256 hφ hacc (ix1 q)).trans
    (congrArg (fun f : Fin 4096 → EReal => (Finset.univ : Finset (Fin 4096)).fold max (Ideal.ofBits .f32 0xFF800000#32) f)
      (funext fun (k : Fin 4096) => congrArg s (lane_lift q k)))

/-- The reduction by addition over the lanes, from zero, at row `q`: the row's sum. -/
theorem row_sum_apply (s : FVec Ideal S256x4096 .f32) (hφ : FKind.Formats .f32)
    (hacc : (0x00000000#32 : BitVec 32) = 0x00000000#32) (q : Fin 256) :
    multiReduction (F := Ideal) .add [1] S256 s 0x00000000#32 reduces_S256x4096_S256 hφ hacc (ix1 q)
      = ∑ k : Fin 4096, s (ix2 q k) :=
  (Ideal.multiReduction_add_single s 0x00000000#32 reduces_S256x4096_S256 hφ hacc (ix1 q)).trans
    (Finset.sum_congr rfl fun k _ => congrArg s (lane_lift q k))

/-! ## The softmax of a block of score rows -/

section Block
variable (s : FVec Ideal S256x4096 .f32) (hφ hφ' : FKind.Formats .f32)
  (hacc : (0xFF800000#32 : BitVec 32) = 0xFF800000#32) (hacc' : (0x00000000#32 : BitVec 32) = 0x00000000#32)

/-- Entry (q, k) of the block with each row's maximum subtracted and the exponential taken: the maximum is kept as a
    column and broadcast back over the lanes, so every entry of row `q` sees row `q`'s maximum. -/
theorem shifted_block_apply (q : Fin 256) (k : Fin 4096) :
    exp (F := Ideal) (subf s (broadcastTo S256x4096 (shapeCast S256x1
        (multiReduction (F := Ideal) .maximumf [1] S256 s 0xFF800000#32 reduces_S256x4096_S256 hφ hacc)
        shapeCasts_S256_S256x1) broadcasts_S256x1_S256x4096)) (ix2 q k)
      = Ideal.exp (s (ix2 q k) - rowMax (fun k' => s (ix2 q k'))) := by
  show Ideal.exp (s (ix2 q k) - broadcastTo S256x4096 (shapeCast S256x1
        (multiReduction (F := Ideal) .maximumf [1] S256 s 0xFF800000#32 reduces_S256x4096_S256 hφ hacc)
        shapeCasts_S256_S256x1) broadcasts_S256x1_S256x4096 (ix2 q k)) = _
  rw [broadcastTo_a1_ab_apply, shapeCast_a_a1_apply, row_max_apply]

/-- Entry (q, k) of the block's softmax: the shifted exponential divided by its row's sum, the sum too kept as a column
    and broadcast back. -/
theorem softmax_block_apply (q : Fin 256) (k : Fin 4096) :
    divf (F := Ideal)
        (exp (F := Ideal) (subf s (broadcastTo S256x4096 (shapeCast S256x1
          (multiReduction (F := Ideal) .maximumf [1] S256 s 0xFF800000#32 reduces_S256x4096_S256 hφ hacc)
          shapeCasts_S256_S256x1) broadcasts_S256x1_S256x4096)))
        (broadcastTo S256x4096 (shapeCast S256x1
          (multiReduction (F := Ideal) .add [1] S256
            (exp (F := Ideal) (subf s (broadcastTo S256x4096 (shapeCast S256x1
              (multiReduction (F := Ideal) .maximumf [1] S256 s 0xFF800000#32 reduces_S256x4096_S256 hφ hacc)
              shapeCasts_S256_S256x1) broadcasts_S256x1_S256x4096)))
            0x00000000#32 reduces_S256x4096_S256 hφ' hacc')
          shapeCasts_S256_S256x1) broadcasts_S256x1_S256x4096) (ix2 q k)
      = softmaxAt (fun k' => s (ix2 q k')) k := by
  show Ideal.div
      (exp (F := Ideal) (subf s (broadcastTo S256x4096 (shapeCast S256x1
        (multiReduction (F := Ideal) .maximumf [1] S256 s 0xFF800000#32 reduces_S256x4096_S256 hφ hacc)
        shapeCasts_S256_S256x1) broadcasts_S256x1_S256x4096)) (ix2 q k))
      (broadcastTo S256x4096 (shapeCast S256x1
        (multiReduction (F := Ideal) .add [1] S256
          (exp (F := Ideal) (subf s (broadcastTo S256x4096 (shapeCast S256x1
            (multiReduction (F := Ideal) .maximumf [1] S256 s 0xFF800000#32 reduces_S256x4096_S256 hφ hacc)
            shapeCasts_S256_S256x1) broadcasts_S256x1_S256x4096)))
          0x00000000#32 reduces_S256x4096_S256 hφ' hacc')
        shapeCasts_S256_S256x1) broadcasts_S256x1_S256x4096 (ix2 q k)) = _
  rw [broadcastTo_a1_ab_apply, shapeCast_a_a1_apply, row_sum_apply, shifted_block_apply]
  unfold softmaxAt
  exact congrArg (Ideal.div _) (Finset.sum_congr rfl fun (k' : Fin 4096) _ => shifted_block_apply s hφ hacc q k')

end Block

/-! ## The stored block -/

/-- Entry (0, q, k) of the stored block: softmax entry `k` of the scores of query row `q` against all 4096 key rows. -/
theorem stored_apply (h : Vec Ideal S1x256x1024 .bf16) (g : Vec Ideal S1x4096x1024 .bf16) (u : Fin 1) (q : Fin 256) (k : Fin 4096) :
    k1_pay1 (F := Ideal) h g (ix3 u q k)
      = softmaxAt (fun k' : Fin 4096 => ∑ d : Fin 1024, h (ix3 (0 : Fin 1) q d) * g (ix3 (0 : Fin 1) k' d)) k := by
  unfold k1_pay1
  dsimp only
  rw [shapeCast_ab_1ab_apply]
  refine (softmax_block_apply _ (.inl rfl) (.inl rfl) rfl rfl q k).trans ?_
  exact congrArg (fun f : Fin 4096 → EReal => softmaxAt f k) (funext fun (k' : Fin 4096) =>
    (scores_block_apply _ _ q k').trans (Finset.sum_congr rfl fun (d : Fin 1024) _ =>
      congrArg₂ (· * ·) (shapeCast_1ab_ab_apply h shapeCasts_S1x256x1024_S256x1024 q d)
        (shapeCast_1ab_ab_apply g shapeCasts_S1x4096x1024_S4096x1024 k' d)))

end Cert.KernelIdeal.AttnValue

end
-- ==== Proof.AttnArray.lean ====
/-
  The attention region, from blocks to the whole result array, at the ideal values.

  The region's grid has 4 × 16 points. At point (b, j) the pipeline hands the body query rows 256·j … 256·j + 255 of
  batch b of the queries' array and ALL 4096 rows of batch b of the keys' array, and writes the stored block back
  to rows 256·j … of batch b of the result, across all 4096 lanes. The stored block's entry (q, k) is the softmax
  entry k of the scores of its query row q against every key row (the payload lemma), so what a point writes back is
  its stretch of rows of ONE function of the two arrays the region was entered with: `attention` of the
  specification. The 64 blocks tile the result array, so after the region it IS that function.

  Everything is stated at arbitrary contents `V` of the core's buffers at the region's entry.
-/
import proofs.«156765_j31988916420764_2_alg».proof.Proof.Gen.KernelIdeal.Frame
import proofs.«156765_j31988916420764_2_alg».proof.Proof.AttnPayload
import proofs.«156765_j31988916420764_2_alg».proof.Proof.Spec
import Idealize.ShloMosaic.Lib.Pipeline.Value

set_option maxRecDepth 16384

noncomputable section

open scoped BigOperators

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx Cert.Spec

/-! ## A block's entry as the array's: a congruence over plain functions into the extended reals -/

/-- If query row `q` of a block is row (b', q') of the array `H` and every key row `k'` of the block is row (b', k') of
    the array `G`, then the block's softmax entry (q, k) is the attention map's at (b', q', k). -/
theorem attention_block (H G : Tok.Idx → EReal)
    (h : (⟨3, ![1, 256, 1024]⟩ : Shape).Idx → EReal) (g : (⟨3, ![1, 4096, 1024]⟩ : Shape).Idx → EReal)
    (b' : Fin 4) (q' : Fin 4096) (q : Fin 256) (k : Fin 4096)
    (hq : ∀ d : Fin 1024, h (ix3 (0 : Fin 1) q d) = H (ix3 b' q' d))
    (hk : ∀ (k' : Fin 4096) (d : Fin 1024), g (ix3 (0 : Fin 1) k' d) = G (ix3 b' k' d)) :
    softmaxAt (fun k' : Fin 4096 => ∑ d : Fin 1024, h (ix3 (0 : Fin 1) q d) * g (ix3 (0 : Fin 1) k' d)) k
      = attention H G (ix3 b' q' k) := by
  show _ = softmaxAt (fun k' : Fin 4096 => ∑ d : Fin 1024, H (ix3 b' q' d) * G (ix3 b' k' d)) k
  exact congrArg (fun f : Fin 4096 → EReal => softmaxAt f k)
    (funext fun k' => Finset.sum_congr rfl fun d _ => by rw [hq d, hk k' d])

variable (V : (c : Dev nD) → (b : Ref sig .tc) → Buf (Elt Ideal) ((c : Thread nD τ).loc b))

theorem hz3 : (![0, 0, 0] : Fin 3 → Nat) = fun _ => 0 := funext fun a => by fin_cases a <;> rfl

/-! ## The index maps, decided over the 64 grid points -/

/-- At every point the query window and the result window sit at one block (batch, row block, 0); the key window at
    block (batch, 0, 0) of the same batch; the batch index is below 4 and the row-block index below 16. -/
theorem idx_facts : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (2 : Fin 3) = 0
    ∧ win1_2.index t (0 : Fin 3) < 4 ∧ win1_2.index t (1 : Fin 3) < 16 :=
  (by decide +kernel : ∀ t : Fin grid1.N, _)

/-! ## Each input block as a stretch of its array -/

/-- The query window's block at point `t` holds 256 consecutive rows of one batch of the queries' array. -/
theorem query_rows (c : Dev nD) (t : Fin cfg1.N) (q : Fin 256) (d : Fin 1024) (b' : Fin 4) (q' : Fin 4096)
    (hb : b'.val = win1_0.index t (0 : Fin 3)) (hq : q'.val = win1_0.index t (1 : Fin 3) * 256 + q.val) :
    iblk1 V c 0 t (ix3 (0 : Fin 1) q d) = V c main_v4_0 (ix3 b' q' d) := by
  obtain ⟨-, -, f02, -⟩ := idx_facts t
  unfold iblk1
  rw [View.read_apply]
  show V c main_v4_0 _ = V c main_v4_0 _
  refine congrArg (V c main_v4_0) (funext fun a => Fin.ext ?_)
  match a with
  | ⟨0, _⟩ => show win1_0.index t (0 : Fin 3) * 1 + 1 * 0 = b'.val; omega
  | ⟨1, _⟩ => show win1_0.index t (1 : Fin 3) * 256 + 1 * q.val = q'.val; omega
  | ⟨2, _⟩ => show win1_0.index t (2 : Fin 3) * 1024 + 1 * d.val = d.val; omega

/-- The key window's block at point `t` holds ALL the rows of one batch of the keys' array. -/
theorem key_rows (c : Dev nD) (t : Fin cfg1.N) (k' : Fin 4096) (d : Fin 1024) (b' : Fin 4)
    (hb : b'.val = win1_1.index t (0 : Fin 3)) :
    iblk1 V c 1 t (ix3 (0 : Fin 1) k' d) = V c main_v4_1 (ix3 b' k' d) := by
  obtain ⟨-, -, -, -, f11, f12, -⟩ := idx_facts t
  unfold iblk1
  rw [View.read_apply]
  show V c main_v4_1 _ = V c main_v4_1 _
  refine congrArg (V c main_v4_1) (funext fun a => Fin.ext ?_)
  match a with
  | ⟨0, _⟩ => show win1_1.index t (0 : Fin 3) * 1 + 1 * 0 = b'.val; omega
  | ⟨1, _⟩ => show win1_1.index t (1 : Fin 3) * 4096 + 1 * k'.val = k'.val; omega
  | ⟨2, _⟩ => show win1_1.index t (2 : Fin 3) * 1024 + 1 * d.val = d.val; omega

/-! ## What a point writes back -/

/-- The result array as a function of the region's entry contents: the attention map of the queries' array against
    the keys' array. -/
abbrev attnOf (c : Dev nD) : Att.Idx → EReal := attention (V c main_v4_0) (V c main_v4_1)

/-- WHAT POINT `t` WRITES BACK is block `t` of `attnOf`. -/
theorem flushed_attn (c : Dev nD) (t : Fin cfg1.N) :
    (dat1 V c).flushed 2 t = ((cfg1.win 2).blk t).view.read (Elt Ideal) (attnOf V c) := by
  show (cfg1.win 2).cut (grid1.coords t) ((dat1 V c).after 2 t) = _
  rw [after1_2]
  unfold out1_2
  rw [View.canon_unit_zero hz3]
  simp only [View.ld_unit_zero (S := S1x256x1024) hz3, View.ld_unit_zero (S := S1x4096x1024) hz3]
  funext y
  have h0 : (y 0).val < 1 := (y 0).isLt
  have h1 : (y 1).val < 256 := (y 1).isLt
  have h2 : (y 2).val < 4096 := (y 2).isLt
  have hL : (win1 2).cut (grid1.coords t) (k1_pay1 (F := Ideal) (iblk1 V c 0 t) (iblk1 V c 1 t)) y
      = k1_pay1 (F := Ideal) (iblk1 V c 0 t) (iblk1 V c 1 t)
          (ix3 (⟨(y 0).val, h0⟩ : Fin 1) (⟨(y 1).val, h1⟩ : Fin 256) (⟨(y 2).val, h2⟩ : Fin 4096)) :=
    congrArg (k1_pay1 (F := Ideal) (iblk1 V c 0 t) (iblk1 V c 1 t))
      (funext fun a => Fin.ext (by match a with | ⟨0, _⟩ => rfl | ⟨1, _⟩ => rfl | ⟨2, _⟩ => rfl))
  refine (hL.trans (stored_apply (iblk1 V c 0 t) (iblk1 V c 1 t) ⟨(y 0).val, h0⟩ ⟨(y 1).val, h1⟩ ⟨(y 2).val, h2⟩)).trans ?_
  obtain ⟨f00, f01, -, f10, -, -, f22, fb, fq⟩ := idx_facts t
  have hb : win1_2.index t (0 : Fin 3) * 1 + 1 * (y 0).val < 4 := by omega
  have hq : win1_2.index t (1 : Fin 3) * 256 + 1 * (y 1).val < 4096 := by omega
  have hk : win1_2.index t (2 : Fin 3) * 4096 + 1 * (y 2).val < 4096 := by omega
  have hE : ((cfg1.win 2).blk t).view.emb y
      = ix3 (⟨win1_2.index t (0 : Fin 3) * 1 + 1 * (y 0).val, hb⟩ : Fin 4) (⟨win1_2.index t (1 : Fin 3) * 256 + 1 * (y 1).val, hq⟩ : Fin 4096)
          (⟨win1_2.index t (2 : Fin 3) * 4096 + 1 * (y 2).val, hk⟩ : Fin 4096) :=
    funext fun a => Fin.ext (by match a with | ⟨0, _⟩ => rfl | ⟨1, _⟩ => rfl | ⟨2, _⟩ => rfl)
  rw [View.read_apply]
  show _ = attnOf V c (((cfg1.win 2).blk t).view.emb y)
  rw [hE]
  -- the lane coordinate of the array IS the block's: the result window spans all 4096 lanes
  have hlane : (⟨win1_2.index t (2 : Fin 3) * 4096 + 1 * (y 2).val, hk⟩ : Fin 4096) = ⟨(y 2).val, h2⟩ :=
    Fin.ext (show win1_2.index t (2 : Fin 3) * 4096 + 1 * (y 2).val = (y 2).val by omega)
  rw [hlane]
  refine attention_block (V c main_v4_0) (V c main_v4_1) (iblk1 V c 0 t) (iblk1 V c 1 t) _ _ _ _ (fun d => ?_) (fun k' d => ?_)
  · exact query_rows V c t _ d _ _
      (show win1_2.index t (0 : Fin 3) * 1 + 1 * (y 0).val = win1_0.index t (0 : Fin 3) by omega)
      (show win1_2.index t (1 : Fin 3) * 256 + 1 * (y 1).val = win1_0.index t (1 : Fin 3) * 256 + (y 1).val by omega)
  · exact key_rows V c t k' d _
      (show win1_2.index t (0 : Fin 3) * 1 + 1 * (y 0).val = win1_1.index t (0 : Fin 3) by omega)

/-! ## The 64 blocks tile the result array -/

/-- Every (batch, row block) position is some point's. -/
theorem idx_onto : ∀ (q0 : Fin 4) (q1 : Fin 16), ∃ t : Fin cfg1.N, win1_2.index t = ![q0.val, q1.val, 0] :=
  (by decide +kernel : ∀ (q0 : Fin 4) (q1 : Fin 16), ∃ t : Fin grid1.N, win1_2.index t = ![q0.val, q1.val, 0])

/-- An index of the result array is in point `t`'s block iff each coordinate is in the block's range on its axis. -/
theorem mem_blk_attn (t : Fin cfg1.N) (i : S4x4096x4096.Idx) :
    i ∈ ((cfg1.win 2).blk t).view.set ↔ ∀ a : Fin 3, win1_2.index t a * S1x256x4096.size a ≤ (i a).val
      ∧ (i a).val < win1_2.index t a * S1x256x4096.size a + S1x256x4096.size a := by
  show i ∈ ((View.whole main_v5).slice (win1_2.rect t)).set ↔ _
  rw [View.set_slice_whole, Rect.mem_set_unit]
  exact Iff.rfl

/-- Entry (b, q, k) lies in the block of the point at batch b, row block q / 256. -/
theorem cover_attn (i : S4x4096x4096.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩
  have q0 : win1_2.index t (0 : Fin 3) = (i 0).val := congrFun ht 0
  have q1 : win1_2.index t (1 : Fin 3) = (i 1).val / 256 := congrFun ht 1
  have q2 : win1_2.index t (2 : Fin 3) = 0 := congrFun ht 2
  refine ⟨t, flush1_2 t, ?_⟩
  rw [mem_blk_attn]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 4096 ≤ (i 2).val ∧ (i 2).val < win1_2.index t (2 : Fin 3) * 4096 + 4096; omega

/-! ## The result array after the region -/

/-- AFTER THE REGION the result array is `attnOf` of the entry contents. -/
theorem final_attn (c : Dev nD) : (dat1 V c).arrAt 2 cfg1.N = attnOf V c :=
  (dat1 V c).arrAt_eq_of_cover 2 (attnOf V c) (fun t _ => flushed_attn V c t) cover_attn

end Cert.KernelIdeal.AttnValue

end
-- ==== Proof.KernelRun.lean ====
/-
  The kernel program's run with its result named.

  @main is a stretch of four host operations (two changes of float format, two reshapes of a bias vector to a
  one-row matrix) and then the two regions in order. Every weakly fair execution terminates without a fault; when it
  does, each unscoped buffer of the core holds what the last boundary's contents say. This module states that
  for the RESULT buffer beside the six arguments — the frame only speaks of the arguments — and then reads the last
  boundary's contents back through the two regions to the arguments the program was launched with.
-/
import proofs.«156765_j31988916420764_2_alg».proof.Proof.Gen.KernelIdeal.Frame
import proofs.«156765_j31988916420764_2_alg».proof.Proof.ProjArray
import proofs.«156765_j31988916420764_2_alg».proof.Proof.AttnArray
import proofs.«156765_j31988916420764_2_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyValues

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every final state has the result buffer at
    the contents the last boundary gives it and the six argument arrays as launched. -/
theorem run_named : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end AnyValues

/-! ## The last boundary's contents, read back to the launch arguments (at the ideal values) -/

section AtIdeal

open Cert.Spec Idealize.ShloMosaic.ValueIdx Idealize.ShloMosaic.StableHlo

variable (m : (ℓ : Loc nD τ sig) → Buf (Elt Ideal) ℓ) (ρ : Dev nD → PrngReg)

/-! ### Region 0's entry: the launch memory after the four host operations -/

/-- No host operation writes a token array. -/
theorem entry_tokens (c : Dev nD) : V1 m ρ c main_arg0 = m ((c : Thread nD τ).loc main_arg0) := by
  show StableHlo.after hostOps0 (W0 m ρ c) (Proc.devRef .tc main_arg0) = _
  after_results <;> rfl
theorem entry_tokens' (c : Dev nD) : V1 m ρ c main_arg1 = m ((c : Thread nD τ).loc main_arg1) := by
  show StableHlo.after hostOps0 (W0 m ρ c) (Proc.devRef .tc main_arg1) = _
  after_results <;> rfl

/-- A change of float format is the identity at the ideal values: the matrix the region finds is the argument. -/
theorem entry_matrix (c : Dev nD) : (V1 m ρ c main_v0 : S1024x1024.Idx → EReal) = m ((c : Thread nD τ).loc main_arg2) := by
  show StableHlo.after hostOps0 (W0 m ρ c) (Proc.devRef .tc main_v0) = _
  after_results <;> rfl
theorem entry_matrix' (c : Dev nD) : (V1 m ρ c main_v1 : S1024x1024.Idx → EReal) = m ((c : Thread nD τ).loc main_arg4) := by
  show StableHlo.after hostOps0 (W0 m ρ c) (Proc.devRef .tc main_v1) = _
  after_results <;> rfl

/-- The bias row the region finds is the bias vector reshaped to one row. -/
theorem entry_bias (c : Dev nD) :
    V1 m ρ c main_v2 = shapeCast S1x1024 (m ((c : Thread nD τ).loc main_arg3)) shapeCasts_S1024_S1x1024 := by
  show StableHlo.after hostOps0 (W0 m ρ c) (Proc.devRef .tc main_v2) = _
  after_results <;> rfl
theorem entry_bias' (c : Dev nD) :
    V1 m ρ c main_v3 = shapeCast S1x1024 (m ((c : Thread nD τ).loc main_arg5)) shapeCasts_S1024_S1x1024 := by
  show StableHlo.after hostOps0 (W0 m ρ c) (Proc.devRef .tc main_v3) = _
  after_results <;> rfl

/-- Entry (0, e) of a vector reshaped to one row is the vector's entry e. -/
theorem row_of_vector (β : S1024.Idx → EReal) :
    (fun i : Bia.Idx => shapeCast S1x1024 β shapeCasts_S1024_S1x1024 (ix2 (0 : Fin 1) (i 0))) = β := by
  funext i
  obtain ⟨e, rfl⟩ : ∃ e : Fin 1024, i = ix1 e := ⟨i 0, eq_ix1 i⟩
  exact shapeCast_a_1a_apply β shapeCasts_S1024_S1x1024 (0 : Fin 1) e

/-! ### Through the two regions -/

/-- The attention map of the two projected arrays, as region 0 leaves them, is the specification's result of the six
    launch arguments. -/
theorem result_entry (c : Dev nD) :
    attention (ProjValue.queries (V1 m ρ) c) (ProjValue.keys (V1 m ρ) c)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Cert.Spec.result
  show attention (linear (V1 m ρ c main_arg0) (V1 m ρ c main_v0) (fun i => V1 m ρ c main_v2 (ix2 (0 : Fin 1) (i 0))))
      (linear (ProjValue.addTok (V1 m ρ c main_arg0) (V1 m ρ c main_arg1)) (V1 m ρ c main_v1) (fun i => V1 m ρ c main_v3 (ix2 (0 : Fin 1) (i 0)))) = _
  rw [entry_tokens, entry_tokens', entry_matrix, entry_matrix', entry_bias, entry_bias', row_of_vector, row_of_vector]

/-- THE RESULT BUFFER at the last boundary is the specification's result of the launch arguments: region 1 leaves the
    attention map of the two arrays it was entered with, and those are what region 0 left. -/
theorem result_named (c : Dev nD) :
    W3 m ρ c (Proc.devRef .tc main_v5)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hq : (V2 m ρ c main_v4_0 : Tok.Idx → EReal) = ProjValue.queries (V1 m ρ) c :=
    (W2_arr m ρ c 6).trans (ProjValue.final_queries (V1 m ρ) c)
  have hk : (V2 m ρ c main_v4_1 : Tok.Idx → EReal) = ProjValue.keys (V1 m ρ) c :=
    (W2_arr m ρ c 7).trans (ProjValue.final_keys (V1 m ρ) c)
  refine ((W3_arr m ρ c 2).trans (AttnValue.final_attn (V2 m ρ) c)).trans ?_
  show attention (V2 m ρ c main_v4_0) (V2 m ρ c main_v4_1) = _
  rw [hq, hk]
  exact result_entry m ρ c

/-! ### The run -/

/-- Every weakly fair execution of the kernel program terminates, nothing faulting, with the result buffer at the
    specification's result of the launch arguments and the arguments unchanged. -/
theorem run : θ_run defs (onTc (τ := τ) (main (F := Ideal))) ⟨m, fun _ => 0, ρ⟩ (fun r => ∀ c : Dev nD,
      r.2.mem ((c.tc : Thread nD τ).loc main_v5)
        = Cert.Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_named m ρ c), (h c).2⟩) (run_named (F := Ideal) m ρ)

end AtIdeal

end Cert.KernelIdeal.RunValue

end
-- ==== Proof.RefValue.lean ====
/-
  The reference's result is the specification's function of the arguments, at the ideal values.

  Read one operation at a time: each of its two matrix products with a broadcast bias is one linear layer of
  the specification; its batched product contracting the feature axis of both operands is the score array; its reduction by
  `maximum` over the key axis is each row's maximum (the one stage read here by hand, as a fold over the axis),
  the `maximum` of that with a broadcast -∞ is the same number, and the rest is the softmax entry by entry.
-/
import proofs.«156765_j31988916420764_2_alg».proof.Proof.Gen.ReferenceIdeal.Read
import proofs.«156765_j31988916420764_2_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-! ## The operand indices of the three products, by coordinates -/

theorem lidx_v0 (b : Fin 4) (s : Fin 4096) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 4096) (e k : Fin 1024) : ridx_main_v0 (ix3 b s e) k = ix2 k e :=
  funext fun a => Fin.ext (by match a with | ⟨0, _⟩ => rfl | ⟨1, _⟩ => rfl)
theorem lidx_v5 (b : Fin 4) (s : Fin 4096) (e k : Fin 1024) : lidx_main_v5 (ix3 b s e) k = ix3 b s k :=
  funext fun a => Fin.ext (by match a with | ⟨0, _⟩ => rfl | ⟨1, _⟩ => rfl | ⟨2, _⟩ => rfl)
theorem ridx_v5 (b : Fin 4) (s : Fin 4096) (e k : Fin 1024) : ridx_main_v5 (ix3 b s e) k = ix2 k e :=
  funext fun a => Fin.ext (by match a with | ⟨0, _⟩ => rfl | ⟨1, _⟩ => rfl)
theorem lidx_v9 (b : Fin 4) (q k : Fin 4096) (d : Fin 1024) : lidx_main_v9 (ix3 b q k) d = ix3 b q d :=
  funext fun a => Fin.ext (by match a with | ⟨0, _⟩ => rfl | ⟨1, _⟩ => rfl | ⟨2, _⟩ => rfl)
theorem ridx_v9 (b : Fin 4) (q k : Fin 4096) (d : Fin 1024) : ridx_main_v9 (ix3 b q k) d = ix3 b k d :=
  funext fun a => Fin.ext (by match a with | ⟨0, _⟩ => rfl | ⟨1, _⟩ => rfl | ⟨2, _⟩ => rfl)
/-- The bias is broadcast along the feature axis: entry (b, s, e) reads the bias at `e`. -/
theorem bias_idx (b : Fin 4) (s : Fin 4096) (e : Fin 1024) : idx_main_v1 (idx_main_v2 (ix3 b s e)) = ix1 e :=
  funext fun a => Fin.ext (by match a with | ⟨0, _⟩ => rfl)
theorem bias_idx' (b : Fin 4) (s : Fin 4096) (e : Fin 1024) : idx_main_v6 (idx_main_v7 (ix3 b s e)) = ix1 e :=
  funext fun a => Fin.ext (by match a with | ⟨0, _⟩ => rfl)

/-! ## The two linear layers -/

/-- The first product plus its broadcast bias is the linear layer of the first argument. -/
theorem queries_eq (x0 : (⟨S4x4096x1024, .f32⟩ : BufTy).Contents (Elt Ideal)) (x2 : (⟨S1024x1024, .f32⟩ : BufTy).Contents (Elt Ideal))
    (x3 : (⟨S1024, .f32⟩ : BufTy).Contents (Elt Ideal)) :
    val_main_v3 (F := Ideal) x0 x2 x3 = linear x0 x2 x3 := by
  funext i
  obtain ⟨b, s, e, rfl⟩ : ∃ (b : Fin 4) (s : Fin 4096) (e : Fin 1024), i = ix3 b s e := ⟨i 0, i 1, i 2, eq_ix3 i⟩
  rw [val_main_v3_apply, val_main_v0_apply, val_main_v2_apply, val_main_v1_apply, bias_idx]
  simp only [lidx_v0, ridx_v0]
  rfl

/-- The second product, of the sum of the first two arguments, plus its bias is the linear layer of that sum. -/
theorem keys_eq (x0 x1 : (⟨S4x4096x1024, .f32⟩ : BufTy).Contents (Elt Ideal)) (x4 : (⟨S1024x1024, .f32⟩ : BufTy).Contents (Elt Ideal))
    (x5 : (⟨S1024, .f32⟩ : BufTy).Contents (Elt Ideal)) :
    val_main_v8 (F := Ideal) x0 x1 x4 x5 = linear (fun i => x0 i + x1 i) x4 x5 := by
  funext i
  obtain ⟨b, s, e, rfl⟩ : ∃ (b : Fin 4) (s : Fin 4096) (e : Fin 1024), i = ix3 b s e := ⟨i 0, i 1, i 2, eq_ix3 i⟩
  rw [val_main_v8_apply, val_main_v5_apply, val_main_v7_apply, val_main_v6_apply, bias_idx']
  simp only [lidx_v5, ridx_v5, val_main_v4_apply]
  rfl

/-! ## The scores -/

/-- The batched product contracting the feature axis of both operands is the score array. -/
theorem scores_apply (x0 x1 : (⟨S4x4096x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (b : Fin 4) (q k : Fin 4096) :
    val_main_v9 (F := Ideal) x0 x1 x2 x3 x4 x5 (ix3 b q k)
      = scoreAt (linear x0 x2 x3) (linear (fun i => x0 i + x1 i) x4 x5) b q k := by
  rw [val_main_v9_apply, queries_eq, keys_eq]
  simp only [lidx_v9, ridx_v9]
  rfl

/-! ## The softmax of each score row -/

/-- The attention map's last axis is the one both reductions run over. -/
theorem keyAxis : S4x4096x4096.Reduces [2] S4x4096 := by decide

/-- Inserting key `k` into the reduced index (b, q) gives (b, q, k). -/
theorem lift_key (b : Fin 4) (q k : Fin 4096) : keyAxis.lift (ix2 b q) k = ix3 b q k :=
  funext fun a => Fin.ext (by match a with | ⟨0, _⟩ => rfl | ⟨1, _⟩ => rfl | ⟨2, _⟩ => rfl)

theorem row_idx (b : Fin 4) (q k : Fin 4096) : idx_main_v13 (idx_main_v14 (ix3 b q k)) = ix2 b q :=
  funext fun a => Fin.ext (by match a with | ⟨0, _⟩ => rfl | ⟨1, _⟩ => rfl)
theorem row_idx' (b : Fin 4) (q k : Fin 4096) : idx_main_v18 (idx_main_v19 (ix3 b q k)) = ix2 b q :=
  funext fun a => Fin.ext (by match a with | ⟨0, _⟩ => rfl | ⟨1, _⟩ => rfl)
theorem key_idx (b : Fin 4) (q k : Fin 4096) : idx_main_v17 (ix2 b q) k = ix3 b q k :=
  funext fun a => Fin.ext (by match a with | ⟨0, _⟩ => rfl | ⟨1, _⟩ => rfl | ⟨2, _⟩ => rfl)

section Softmax
variable (x0 x1 : (⟨S4x4096x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal))

/-- Score row (b, q) of the specification, as a function of the key. -/
abbrev scoreRow (b : Fin 4) (q : Fin 4096) : Fin 4096 → EReal :=
  fun k => scoreAt (linear x0 x2 x3) (linear (fun i => x0 i + x1 i) x4 x5) b q k

/-- The reduction by `maximum` from -∞ over the key axis is the row's maximum: a fold of a commutative,
    associative operation over one axis does not depend on the order the axis is walked in. -/
theorem rowmax_apply (b : Fin 4) (q : Fin 4096) :
    val_main_v10 (F := Ideal) x0 x1 x2 x3 x4 x5 (ix2 b q) = rowMax (scoreRow x0 x1 x2 x3 x4 x5 b q) := by
  unfold val_main_v10
  rw [Host.reduce_eq_fold_single FloatOps.maximumf _ _ _ keyAxis _ (ix2 b q)]
  unfold rowMax
  show (Finset.univ : Finset (Fin 4096)).fold max (Ideal.ofBits .f32 0xFF800000#32)
      (fun k => val_main_v9 (F := Ideal) x0 x1 x2 x3 x4 x5 (keyAxis.lift (ix2 b q) k)) = _
  refine congrArg (fun f : Fin 4096 → EReal => (Finset.univ : Finset (Fin 4096)).fold max (Ideal.ofBits .f32 0xFF800000#32) f)
    (funext fun (k : Fin 4096) => ?_)
  exact (congrArg (val_main_v9 (F := Ideal) x0 x1 x2 x3 x4 x5) (lift_key b q k)).trans
    (scores_apply x0 x1 x2 x3 x4 x5 b q k)

/-- A shifted, exponentiated score: the further `maximum` against a broadcast -∞ changes nothing. -/
theorem shifted_apply (b : Fin 4) (q k : Fin 4096) :
    val_main_v16 (F := Ideal) x0 x1 x2 x3 x4 x5 (ix3 b q k)
      = Ideal.exp (scoreRow x0 x1 x2 x3 x4 x5 b q k - rowMax (scoreRow x0 x1 x2 x3 x4 x5 b q)) := by
  rw [val_main_v16_apply, val_main_v15_apply, val_main_v14_apply, val_main_v13_apply, row_idx, val_main_v12_apply,
    val_main_v11_apply, val_main_cst_0_apply, rowmax_apply, scores_apply]
  show Ideal.exp (_ - max (Ideal.ofBits .f32 0xFF800000#32) _) = _
  rw [max_negInf_rowMax]

/-- The row's sum of exponentials: the reduction by `add` starts from zero. -/
theorem denominator_apply (b : Fin 4) (q : Fin 4096) :
    val_main_v17 (F := Ideal) x0 x1 x2 x3 x4 x5 (ix2 b q)
      = ∑ j : Fin 4096, Ideal.exp (scoreRow x0 x1 x2 x3 x4 x5 b q j - rowMax (scoreRow x0 x1 x2 x3 x4 x5 b q)) := by
  rw [val_main_v17_apply]
  show Ideal.ofBits .f32 0x00000000#32 + _ = _
  rw [Ideal.ofBits_zero_f32, zero_add]
  exact Finset.sum_congr rfl fun j _ => by rw [key_idx, shifted_apply]

/-- THE REFERENCE IS THE SPECIFICATION: its last stage, as a function of the six arguments, is `Spec.result`. -/
theorem result_eq : val_main_v20 (F := Ideal) x0 x1 x2 x3 x4 x5 = Cert.Spec.result x0 x1 x2 x3 x4 x5 := by
  funext i
  obtain ⟨b, q, k, rfl⟩ : ∃ (b : Fin 4) (q k : Fin 4096), i = ix3 b q k := ⟨i 0, i 1, i 2, eq_ix3 i⟩
  rw [val_main_v20_apply, val_main_v19_apply, val_main_v18_apply, row_idx', denominator_apply, shifted_apply]
  rfl

end Softmax

end Cert.ReferenceIdeal.RefValue

end
-- ==== Proof.lean ====
/-
  A two-stage attention kernel against its plain reference, equal on the extended reals.

  Both programs take two token arrays x, p of shape [4, 4096, 1024], two weight matrices and two bias vectors, and
  return, for each batch, the softmax over keys of the scores of

      h = x · w₁ + β₁      against      g = (x + p) · w₂ + β₂ ,       a[b, q, k] = Σ_d h[b, q, d] · g[b, k, d].

  The kernel does it in two passes over tiles: one pass writes h and g, 512 rows at a time (narrowed to a shorter
  float format on the way, which changes nothing at the ideal values); the second takes 256 query rows and all 4096
  key rows of a batch, forms the score rows by a product that contracts the last axis of both operands, and
  normalises each row — maximum from -∞, subtract, exponentiate, sum from zero, divide. The reference writes the
  same formulas as three whole-array products and a library softmax, which takes the maximum of the row maximum with
  -∞ once more; on the extended reals that is the identity.

  No law beyond that is needed: every sum is a finite sum over the same index set on both sides, read entry by
  entry, so the two results are ONE function of the six arguments (`Cert.Spec.result`), whatever the arguments —
  the precondition that the inputs are finite is never opened.

  The kernel's side: each region's stored blocks read at an index, the blocks of a region tiling its result arrays,
  the two regions chained through the arrays the first leaves for the second. The reference's side: its operations
  read one at a time. `preserves` is trivial: the idealization rewrote no operation.
-/
import proofs.«156765_j31988916420764_2_alg».proof.Defs
import proofs.«156765_j31988916420764_2_alg».proof.Proof.Gen.Kernel
import proofs.«156765_j31988916420764_2_alg».proof.Proof.Gen.Kernel.Skeleton
import proofs.«156765_j31988916420764_2_alg».proof.Proof.Gen.Kernel.Launch
import proofs.«156765_j31988916420764_2_alg».proof.Proof.Gen.Kernel.Points
import proofs.«156765_j31988916420764_2_alg».proof.Proof.Gen.Kernel.Frame
import proofs.«156765_j31988916420764_2_alg».proof.Proof.Gen.KernelIdeal
import proofs.«156765_j31988916420764_2_alg».proof.Proof.Gen.KernelIdeal.Skeleton
import proofs.«156765_j31988916420764_2_alg».proof.Proof.Gen.KernelIdeal.Launch
import proofs.«156765_j31988916420764_2_alg».proof.Proof.Gen.KernelIdeal.Points
import proofs.«156765_j31988916420764_2_alg».proof.Proof.Gen.KernelIdeal.Frame
import proofs.«156765_j31988916420764_2_alg».proof.Proof.Gen.ReferenceIdeal
import proofs.«156765_j31988916420764_2_alg».proof.Proof.Gen.ReferenceIdeal.Run
import proofs.«156765_j31988916420764_2_alg».proof.Proof.Gen.ReferenceIdeal.Read
import proofs.«156765_j31988916420764_2_alg».proof.Proof.Gen.Pre_finite_inputs
import proofs.«156765_j31988916420764_2_alg».proof.Proof.KernelRun
import proofs.«156765_j31988916420764_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end with its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading at the ideal values. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values the kernel's result array ends at the specification's function of its arguments, and the
    reference's at the same function of arguments that agree with them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v20_eq, Cert.ReferenceIdeal.RefValue.result_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
